-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S1000x256 : Shape := ⟨2, ![1000, 256]⟩
abbrev S16384 : Shape := ⟨1, ![16384]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S1000x256 : S_.BroadcastsInDim S1000x256 (![] : Fin 0 → Fin S1000x256.rank)
  reducesTo_S1000x256_S_d0_1 : S1000x256.ReducesTo [0, 1] S_

variable [Facts]

def fn {F : FTy → Type} [FloatOps F] (main_arg0 : FVec F S16384x256 .f32) (main_arg1 : FVec F S1000x256 .f32) (main_arg2 : IVec S16384 32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S1000x256 .f32 := Host.absf main_arg1
  let main_cst_0 : FVec F S_ .f32 := constant S_ .f32 0x7F800000#32
  let main_v5 : FVec F S1000x256 .f32 := broadcastInDim S1000x256 ![] bcast_S_S1000x256 main_cst_0
  let main_v6 : IVec S1000x256 1 := cmpf .olt main_v4 main_v5
  let main_c_1 : IVec S_ 1 := constantI S_ 1 1#1
  let main_v7 : IVec S_ 1 := (fun x v => Host.reduce IntOp.andi x v reducesTo_S1000x256_S_d0_1 h_S_) main_v6 main_c_1
  let main_v8 : IVec S_ 1 := andi main_v3 main_v7
  main_v8
-- ==== Kernel.lean ====
abbrev S16384x256 : Shape := ⟨2, ![16384, 256]⟩
abbrev S1000x256 : Shape := ⟨2, ![1000, 256]⟩
abbrev S16384 : Shape := ⟨1, ![16384]⟩
abbrev S_ : Shape := ⟨0, ![]⟩
abbrev S1024x256 : Shape := ⟨2, ![1024, 256]⟩
abbrev S256x1024 : Shape := ⟨2, ![256, 1024]⟩
abbrev S1024 : Shape := ⟨1, ![1024]⟩
abbrev S1x1024 : Shape := ⟨2, ![1, 1024]⟩
abbrev S16384x1 : Shape := ⟨2, ![16384, 1]⟩
abbrev S16x1x1 : Shape := ⟨3, ![16, 1, 1]⟩
abbrev S1024x1 : Shape := ⟨2, ![1024, 1]⟩
abbrev S1x1x1 : Shape := ⟨3, ![1, 1, 1]⟩
abbrev S1024x1024 : Shape := ⟨2, ![1024, 1024]⟩
abbrev S1 : Shape := ⟨1, ![1]⟩
abbrev S1x1 : Shape := ⟨2, ![1, 1]⟩

abbrev nBuf : Space → Nat
  | .hbm => 23
  | .vmem => 10
  | .smem => 0
  | _ => 0

abbrev bufTy : (tb : Table) → Fin (tcTables nBuf tb) → BufTy
  | .hbm, ⟨0, _⟩ => ⟨S16384x256, .f32⟩
  | .hbm, ⟨1, _⟩ => ⟨S1000x256, .f32⟩
  | .hbm, ⟨2, _⟩ => ⟨S16384, .i32⟩
  | .hbm, ⟨3, _⟩ => ⟨S_, .i32⟩
  | .hbm, ⟨4, _⟩ => ⟨S_, .f32⟩
  | .hbm, ⟨5, _⟩ => ⟨S1024x256, .f32⟩
  | .hbm, ⟨6, _⟩ => ⟨S1024x256, .bf16⟩
  | .hbm, ⟨7, _⟩ => ⟨S256x1024, .bf16⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S16384x256, .bf16⟩
  | .hbm, ⟨13, _⟩ => ⟨S16384x256, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x1, .i32⟩
  | .hbm, ⟨18, _⟩ => ⟨S16x1x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1024x1, .f32⟩
  | .local _ .vmem, ⟨3, _⟩ => ⟨S1024x1, .f32⟩
  | .local _ .vmem, ⟨4, _⟩ => ⟨S256x1024, .bf16⟩
  | .local _ .vmem, ⟨5, _⟩ => ⟨S1x1024, .f32⟩
  | .local _ .vmem, ⟨6, _⟩ => ⟨S1024x1, .i32⟩
  | .local _ .vmem, ⟨7, _⟩ => ⟨S1024x1, .i32⟩
  | .local _ .vmem, ⟨8, _⟩ => ⟨S1x1x1, .f32⟩
  | .local _ .vmem, ⟨9, _⟩ => ⟨S1x1x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S1000x256_S1024x256_0240_000 : S1000x256.Pads (![0, 0] : Fin 2 → Nat) ![24, 0] ![0, 0] S1024x256
  h_S_ : 0 < S_.numel
  bitsLt_bf16_f32 : FTy.bits .bf16 < FTy.bits .f32
  transposes_S1024x256_S256x1024_1_0 : S1024x256.Transposes [1, 0] S256x1024
  reducesTo_S1024x256_S1024_d1 : S1024x256.ReducesTo [1] S1024
  shapeCasts_S1024_S1x1024 : S1024.ShapeCasts S1x1024
  reducesTo_S16384x256_S16384_d1 : S16384x256.ReducesTo [1] S16384
  bcast_S16384_S16384x1_0 : S16384.BroadcastsInDim S16384x1 (![0] : Fin 1 → Fin S16384x1.rank)
  shapeCasts_S16384_S16384x1 : S16384.ShapeCasts S16384x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1024_d1_w32 : S1024x1024.Iotas .tc 32 [1]
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S16x1x1_S_d0_1_2 : S16x1x1.ReducesTo [0, 1, 2] S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .bf16 = 32 ∨ (Rect.block (s := S16384x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S16384x1.size a
  hwx0_1 : ∀ i : grid0.Coords, EltTy.bits .f32 = 32 ∨ (Rect.block (s := S16384x1) S1024x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S16384x1.size a
  hwx0_4 : ∀ i : grid0.Coords, EltTy.bits .i32 = 32 ∨ (Rect.block (s := S16384x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S16x1x1.size a
  hwx0_5 : ∀ i : grid0.Coords, EltTy.bits .f32 = 32 ∨ (Rect.block (s := S16x1x1) S1x1x1.size (cc0_transform_5 i) (hinb0_5 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v6) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x256 : Shape := ⟨2, ![16384, 256]⟩
abbrev S1000x256 : Shape := ⟨2, ![1000, 256]⟩
abbrev S16384 : Shape := ⟨1, ![16384]⟩
abbrev S_ : Shape := ⟨0, ![]⟩
abbrev S16384x1 : Shape := ⟨2, ![16384, 1]⟩
abbrev S1000 : Shape := ⟨1, ![1000]⟩
abbrev S1x1000 : Shape := ⟨2, ![1, 1000]⟩
abbrev S16384x1000 : Shape := ⟨2, ![16384, 1000]⟩

abbrev nBuf : Space → Nat
  | .hbm => 42
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1000x256, .f32⟩
  | .hbm, ⟨2, _⟩ => ⟨S16384, .i32⟩
  | .hbm, ⟨3, _⟩ => ⟨S16384x256, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1000x256, .f32⟩
  | .hbm, ⟨8, _⟩ => ⟨S_, .f32⟩
  | .hbm, ⟨9, _⟩ => ⟨S1000, .f32⟩
  | .hbm, ⟨10, _⟩ => ⟨S1x1000, .f32⟩
  | .hbm, ⟨11, _⟩ => ⟨S16384x1000, .f32⟩
  | .hbm, ⟨12, _⟩ => ⟨S16384x1000, .f32⟩
  | .hbm, ⟨13, _⟩ => ⟨S16384x1000, .f32⟩
  | .hbm, ⟨14, _⟩ => ⟨S16384x1000, .f32⟩
  | .hbm, ⟨15, _⟩ => ⟨S_, .f32⟩
  | .hbm, ⟨16, _⟩ => ⟨S16384x1000, .f32⟩
  | .hbm, ⟨17, _⟩ => ⟨S16384x1000, .f32⟩
  | .hbm, ⟨18, _⟩ => ⟨S16384x1000, .f32⟩
  | .hbm, ⟨19, _⟩ => ⟨S16384x1, .i32⟩
  | .hbm, ⟨20, _⟩ => ⟨S1000, .i32⟩
  | .hbm, ⟨21, _⟩ => ⟨S1x1000, .i32⟩
  | .hbm, ⟨22, _⟩ => ⟨S16384x1000, .i32⟩
  | .hbm, ⟨23, _⟩ => ⟨S16384x1000, .i32⟩
  | .hbm, ⟨24, _⟩ => ⟨S16384x1000, .i1⟩
  | .hbm, ⟨25, _⟩ => ⟨S16384x1000, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16384x1000, .f32⟩
  | .hbm, ⟨30, _⟩ => ⟨S16384x1000, .f32⟩
  | .hbm, ⟨31, _⟩ => ⟨S_, .f32⟩
  | .hbm, ⟨32, _⟩ => ⟨S16384x1000, .f32⟩
  | .hbm, ⟨33, _⟩ => ⟨S16384x1000, .f32⟩
  | .hbm, ⟨34, _⟩ => ⟨S_, .f32⟩
  | .hbm, ⟨35, _⟩ => ⟨S_, .f32⟩
  | .hbm, ⟨36, _⟩ => ⟨S16384x1000, .f32⟩
  | .hbm, ⟨37, _⟩ => ⟨S16384x1000, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v20 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  reducesTo_S1000x256_S1000_d1 : S1000x256.ReducesTo [1] S1000
  bcast_S1000_S1x1000_1 : S1000.BroadcastsInDim S1x1000 (![1] : Fin 1 → Fin S1x1000.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  bcast_S_S16384x1000 : S_.BroadcastsInDim S16384x1000 (![] : Fin 0 → Fin S16384x1000.rank)
  reducesTo_S16384x1000_S_d0_1 : S16384x1000.ReducesTo [0, 1] S_
  dot_S16384x256_S1000x256_S16384x1000_1_1_0_0_n_n_wf : DotDims.WF S16384x256 S1000x256 S16384x1000 [1] [1] [0] [0] [] []

variable [Facts₀]

def dot_S16384x256_S1000x256_S16384x1000_1_1_0_0_n_n : DotDims S16384x256 S1000x256 S16384x1000 where
  lhsContracting := [1]
  rhsContracting := [1]
  lhsNonContracting := [0]
  rhsNonContracting := [0]
  lhsBatch := []
  rhsBatch := []
  wf := dot_S16384x256_S1000x256_S16384x1000_1_1_0_0_n_n_wf

class Facts : Prop extends Facts₀ where

variable [Facts]
-- ==== Proof.HostPrefix.lean ====
/-
  What the pallas_call's five input arrays hold when the region is entered, as functions of the three arguments.
  The lines before the call prepare: the points themselves (a change of float format, the identity on extended
  reals); the squared norm of every point, as a column; the class centers padded with 24 rows of the padding value,
  transposed; the squared norm of every padded center, as a row; the labels, as a column. Each is read here at an
  index. Of the padded centers only the first 1000 columns are read: the padding columns never reach the result.
-/
import proofs.«103654_j41197326303940_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.KernelVsHost
import Idealize.ShloMosaic.PureOps.Ideal.Laws

noncomputable section

open scoped BigOperators

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-- The points, the class centers and the labels as launched. -/
abbrev pts : FVec Ideal S16384x256 .f32 := m ((c : Thread nD τ).loc main_arg0)
abbrev ctr : FVec Ideal S1000x256 .f32 := m ((c : Thread nD τ).loc main_arg1)
abbrev lbl : IVec S16384 32 := m ((c : Thread nD τ).loc main_arg2)

/-- The centers padded to 1024 rows. -/
abbrev ctrPad : FVec Ideal S1024x256 .f32 :=
  pad S1024x256 ![0, 0] ![24, 0] ![0, 0] (ctr m c) (sitofp (F := Ideal) .f32 (constantI S_ 32 0#32))
    Facts₀.pads_S1000x256_S1024x256_0240_000 Facts₀.h_S_

/-! ## The five arrays as the prefix's terms -/

theorem V_points : @Eq (S16384x256.Idx → EReal) (V m c main_v6)
    (truncf (F := Ideal) .bf16 (pts m c) Facts₀.bitsLt_bf16_f32) := by
  dsimp only [V, V0]
  simp only [hostOps0, hostOps0_1, hostOps0_2, List.flatten_cons, List.flatten_nil, List.append_nil, List.cons_append, List.nil_append]
  after_results
  all_goals rfl

theorem V_pointSq : @Eq (S16384x1.Idx → EReal) (V m c main_v9)
    (broadcastInDim S16384x1 ![0] Facts₀.bcast_S16384_S16384x1_0
      (Host.reduceAdd (mulf (pts m c) (pts m c)) (constant (F := Ideal) S_ .f32 0x00000000#32)
        Facts₀.reducesTo_S16384x256_S16384_d1 Facts₀.h_S_)) := by
  dsimp only [V, V0]
  simp only [hostOps0, hostOps0_1, hostOps0_2, List.flatten_cons, List.flatten_nil, List.append_nil, List.cons_append, List.nil_append]
  after_results
  all_goals rfl

theorem V_labels : @Eq (S16384x1.Idx → BitVec 32) (V m c main_v10)
    (shapeCast S16384x1 (lbl m c) Facts₀.shapeCasts_S16384_S16384x1) := by
  dsimp only [V, V0]
  simp only [hostOps0, hostOps0_1, hostOps0_2, List.flatten_cons, List.flatten_nil, List.append_nil, List.cons_append, List.nil_append]
  after_results
  all_goals rfl

theorem V_centersT : @Eq (S256x1024.Idx → EReal) (V m c main_v2)
    (transpose S256x1024 [1, 0] (truncf (F := Ideal) .bf16 (ctrPad m c) Facts₀.bitsLt_bf16_f32)
      Facts₀.transposes_S1024x256_S256x1024_1_0) := by
  dsimp only [V, V0]
  simp only [hostOps0, hostOps0_1, hostOps0_2, List.flatten_cons, List.flatten_nil, List.append_nil, List.cons_append, List.nil_append]
  after_results
  all_goals rfl

theorem V_centerSq : @Eq (S1x1024.Idx → EReal) (V m c main_v5)
    (shapeCast S1x1024 (Host.reduceAdd (mulf (ctrPad m c) (ctrPad m c)) (constant (F := Ideal) S_ .f32 0x00000000#32)
        Facts₀.reducesTo_S1024x256_S1024_d1 Facts₀.h_S_) Facts₀.shapeCasts_S1024_S1x1024) := by
  dsimp only [V, V0]
  simp only [hostOps0, hostOps0_1, hostOps0_2, List.flatten_cons, List.flatten_nil, List.append_nil, List.cons_append, List.nil_append]
  after_results
  all_goals rfl

/-! ## Read at an index -/

/-- A padded center's row below 1000 is the center's. -/
theorem ctrPad_apply (j : Fin 1024) (hj : j.val < 1000) (k : Fin 256) :
    ctrPad m c (ix2 j k) = ctr m c (ix2 ⟨j.val, hj⟩ k) :=
  pad_apply_of_inside _ _ _ _ _ _ _ (ix2 j k) (ix2 ⟨j.val, hj⟩ k) (fun a => match a with
    | ⟨0, _⟩ => by show j.val = 0 + j.val * (0 + 1); omega
    | ⟨1, _⟩ => by show k.val = 0 + k.val * (0 + 1); omega)

/-- The points' array read at an index: the point's coordinate. -/
theorem points_apply (i : S16384x256.Idx) : V m c main_v6 i = pts m c i := by
  rw [V_points]; rfl

/-- The column of squared norms at row `b`: the zero word plus the sum of the squares of the point's coordinates. -/
theorem pointSq_apply (b : Fin 16384) :
    V m c main_v9 (ix2 b (0 : Fin 1)) = Ideal.ofBits .f32 0x00000000#32 + ∑ k : Fin 256, pts m c (ix2 b k) * pts m c (ix2 b k) := by
  rw [V_pointSq]
  refine (broadcastInDim_apply _ Facts₀.bcast_S16384_S16384x1_0 _ (ix2 b (0 : Fin 1)) (ix1 b) (fun a => match a with
    | ⟨0, _⟩ => by show b.val = if (16384 : Nat) = 1 then 0 else b.val; rw [if_neg (by decide)])).trans ?_
  simp only [Host.reduceAdd, Ideal.hostReduceAdd_def]
  rw [Ideal.hostReduceAdd_single Facts₀.reducesTo_S16384x256_S16384_d1 (by decide)]
  refine congrArg (_ + ·) (Finset.sum_congr rfl fun k _ => ?_)
  have e : (by decide : S16384x256.Reduces [1] S16384).lift (ix1 b) k = ix2 b k :=
    funext fun a => Fin.ext (by match a with | ⟨0, _⟩ => rfl | ⟨1, _⟩ => rfl)
  rw [e]; rfl

/-- The labels' column at row `b`: the label of point `b`. -/
theorem labels_apply (b : Fin 16384) : V m c main_v10 (ix2 b (0 : Fin 1)) = lbl m c (ix1 b) := by
  rw [V_labels]
  exact shapeCast_apply _ _ (ix2 b (0 : Fin 1)) (ix1 b) (by
    rw [Shape.rowMajor_val_one, Shape.rowMajor_val_two]; show b.val = b.val * 1 + 0; omega)

/-- The transposed padded centers at (k, j), j below 1000: coordinate k of center j. -/
theorem centersT_apply (k : Fin 256) (j : Fin 1024) (hj : j.val < 1000) :
    V m c main_v2 (ix2 k j) = ctr m c (ix2 ⟨j.val, hj⟩ k) := by
  rw [V_centersT]
  refine (transpose_apply _ _ Facts₀.transposes_S1024x256_S256x1024_1_0 (ix2 k j) (ix2 j k) (fun b => match b with
    | ⟨0, _⟩ => rfl
    | ⟨1, _⟩ => rfl)).trans ?_
  exact ctrPad_apply m c j hj k

/-- The row of the centers' squared norms at column j below 1000: the zero word plus the sum of the squares of center j's coordinates. -/
theorem centerSq_apply (j : Fin 1024) (hj : j.val < 1000) :
    V m c main_v5 (ix2 (0 : Fin 1) j)
      = Ideal.ofBits .f32 0x00000000#32 + ∑ k : Fin 256, ctr m c (ix2 ⟨j.val, hj⟩ k) * ctr m c (ix2 ⟨j.val, hj⟩ k) := by
  rw [V_centerSq]
  refine (shapeCast_apply _ Facts₀.shapeCasts_S1024_S1x1024 (ix2 (0 : Fin 1) j) (ix1 j) (by
    rw [Shape.rowMajor_val_one, Shape.rowMajor_val_two]; show j.val = 0 * 1024 + j.val; omega)).trans ?_
  simp only [Host.reduceAdd, Ideal.hostReduceAdd_def]
  rw [Ideal.hostReduceAdd_single Facts₀.reducesTo_S1024x256_S1024_d1 (by decide)]
  refine congrArg (_ + ·) (Finset.sum_congr rfl fun k _ => ?_)
  have e : (by decide : S1024x256.Reduces [1] S1024).lift (ix1 j) k = ix2 j k :=
    funext fun a => Fin.ext (by match a with | ⟨0, _⟩ => rfl | ⟨1, _⟩ => rfl)
  rw [e]
  show ctrPad m c (ix2 j k) * ctrPad m c (ix2 j k) = _
  rw [ctrPad_apply m c j hj k]

end Cert.KernelIdeal.Prefix

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.LibColSum.lean ====
/- A sum down the rows of a matrix, on the extended reals, for any extents: a `vector.multi_reduction <add>` along
   axis 0 of an [A, K] array from the neutral accumulator, read at column q, is the sum over the row coordinate k of
   the matrix at (k, q). The companion of the lane sum along axis 1. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.ColSum

/-- A sum down the rows from the neutral accumulator, read at column q: the sum over the row coordinate of the matrix
    at (k, q). The hypotheses are typed as the library's reading of the reduction takes them; a printed body's proof
    arguments are accepted for them. -/
theorem colSum_apply {A K : ℕ} (src : FVec Ideal ⟨2, ![A, K]⟩ .f32) (acc : BitVec 32)
    (h : (⟨2, ![A, K]⟩ : Shape).Reduces [0] ⟨1, ![K]⟩) (hφ : FKind.Formats .f32) (hacc : acc = FKind.add.neutral .f32 hφ)
    (q : Fin K) :
    multiReduction .add [0] ⟨1, ![K]⟩ src acc h hφ hacc (ix1 q) = ∑ k : Fin A, src (ix2 k q) :=
  (Ideal.multiReduction_add_single src acc h hφ hacc (ix1 q)).trans
    (Finset.sum_congr rfl fun k _ => congrArg src (funext fun a => Fin.ext (by
      match a with
      | ⟨0, _⟩ => rfl
      | ⟨1, _⟩ => rfl)))

end Cert.Lib.ColSum

end
-- ==== Proof.Spec.lean ====
/-
  The specification: the mean distance from every point to the centers of the classes that are not its own.
  For a point b and a class j the squared distance is taken in its expanded form, |x_b|² + |c_j|² − 2·⟨x_b, c_j⟩, each
  of the three sums starting where the programs start it; its square root is clamped between two literals; the
  class equal to the point's label contributes the zero word instead; the total over all points and classes is
  divided by a literal count. Everything is on the extended reals, and nothing here asks the inputs to be finite.

  One law is proved: under the clamp's lower literal, which is not negative, taking the root of the larger of the
  squared distance and zero is taking the root of the squared distance. Below zero (and at −∞) the first gives the
  root of zero, which is zero, the second the junk value −∞, and the maximum with a nonnegative bound forgets both.
-/
import Idealize.ShloMosaic.PureOps.Ideal
import Idealize.ShloMosaic.PureOps.Ideal.Laws
import Idealize.ShloMosaic.Lib.ValueIdx

noncomputable section

open scoped BigOperators

namespace Cert.CenterDistance

open Idealize.ShloMosaic Idealize.ShloMosaic.ValueIdx

/-- The literals both programs carry, as the extended reals their words denote. -/
abbrev zeroW : EReal := Ideal.ofBits .f32 0x00000000#32
abbrev twoW : EReal := Ideal.ofBits .f32 0x40000000#32
abbrev loW : EReal := Ideal.ofBits .f32 0x322BCC77#32
abbrev hiW : EReal := Ideal.ofBits .f32 0x4CBEBC20#32
abbrev countW : EReal := Ideal.ofBits .f32 0x4B79C000#32

section
variable (x : (⟨2, ![16384, 256]⟩ : Shape).Idx → EReal) (cen : (⟨2, ![1000, 256]⟩ : Shape).Idx → EReal)
  (lab : (⟨1, ![16384]⟩ : Shape).Idx → BitVec 32)

/-- The squared norm of point b. -/
def pointSq (b : Fin 16384) : EReal := zeroW + ∑ k : Fin 256, x (ix2 b k) * x (ix2 b k)
/-- The squared norm of center j. -/
def centerSq (j : Fin 1000) : EReal := zeroW + ∑ k : Fin 256, cen (ix2 j k) * cen (ix2 j k)
/-- The inner product of point b and center j. -/
def innerProd (b : Fin 16384) (j : Fin 1000) : EReal := ∑ k : Fin 256, x (ix2 b k) * cen (ix2 j k)
/-- The squared distance in expanded form. -/
def sqDist (b : Fin 16384) (j : Fin 1000) : EReal := (pointSq x b + centerSq cen j) - twoW * innerProd x cen b j
/-- The root, clamped. -/
def clampRoot (d : EReal) : EReal := min hiW (max loW (Ideal.sqrt d))
/-- What the pair (b, j) contributes: the zero word for the point's own class, the clamped distance otherwise. -/
def term (b : Fin 16384) (j : Fin 1000) : EReal :=
  Scalar.select (IntOp.cmpi .eq (lab (ix1 b)) (BitVec.ofNat 32 j.val)) zeroW (clampRoot (sqDist x cen b j))
/-- The total over all pairs. -/
def total : EReal := ∑ b : Fin 16384, ∑ j : Fin 1000, term x cen lab b j
/-- The result: the total, from the zero word, over the count. -/
def loss : (⟨0, ![]⟩ : Shape).Idx → EReal := fun _ =>
  FloatOps.hostDivf (F := Ideal) (φ := .f32) (zeroW + total x cen lab) countW

end

/-- The clamp's lower literal is not negative. -/
theorem loW_nonneg : 0 ≤ loW := by
  simp [Ideal.ofBits, Ideal.ieee]
  positivity

/-- The root of zero is zero. -/
theorem sqrt_zero : Ideal.sqrt 0 = 0 := by
  rw [← EReal.coe_zero, Ideal.sqrt_coe]; simp

/-- Below zero the root is the junk value. -/
theorem sqrt_of_neg {d : EReal} (h : d < 0) : Ideal.sqrt d = ⊥ := by
  induction d using EReal.rec with
  | bot => rfl
  | top => exact absurd h (not_lt.mpr le_top)
  | coe r => rw [Ideal.sqrt_coe, if_pos (by exact_mod_cast h)]

/-- Under a nonnegative lower bound, the root of max(d, 0) and the root of d are not told apart. -/
theorem max_sqrt_max_zero (ε d : EReal) (hε : 0 ≤ ε) : max ε (Ideal.sqrt (max d 0)) = max ε (Ideal.sqrt d) := by
  rcases le_or_gt 0 d with h | h
  · rw [max_eq_left h]
  · rw [max_eq_right h.le, sqrt_zero, sqrt_of_neg h, max_eq_left hε, max_eq_left bot_le]

/-- So the kernel's clamp of the root of max(d, zero word) is the specification's clamp of the root of d. -/
theorem clampRoot_max_zero (d : EReal) : min hiW (max loW (Ideal.sqrt (max d zeroW))) = clampRoot d := by
  unfold clampRoot
  rw [show zeroW = 0 from Ideal.ofBits_zero_f32, max_sqrt_max_zero loW d loW_nonneg]

end Cert.CenterDistance

end
-- ==== Proof.Payload.lean ====
/-
  The body's one stored value, read. A tile holds 1024 points against all 1024 (padded) class columns; the body's
  result is a [1,1,1] block whose one entry is the sum, over the tile's rows and then over the lanes, of the masked
  clamped distances. Each cell (r, c) of the tile is a pointwise expression of: the row's squared norm (a column
  broadcast along the lanes), the column's squared norm (a row broadcast down the rows), the matrix product of the
  tile's points with the transposed centers into the zero accumulator, the lane number, and the row's label (a column
  broadcast along the lanes). A cell is masked to the zero word when its lane number is the row's label or is 1000 or more.
-/
import proofs.«103654_j41197326303940_2_alg».proof.Proof.Gen.KernelIdeal.Skeleton
import Idealize.ShloMosaic.Lib.Pipeline.Value
import Idealize.ShloMosaic.Lib.ValueIdx
import Idealize.ShloMosaic.PureOps.Ideal.Laws
import proofs.«103654_j41197326303940_2_alg».proof.Proof.LibPlainMatmul
import proofs.«103654_j41197326303940_2_alg».proof.Proof.LibColSum
import proofs.«103654_j41197326303940_2_alg».proof.Proof.Spec

noncomputable section

open scoped BigOperators

namespace Cert.KernelIdeal.Payload

open Cert.KernelIdeal Idealize.ShloMosaic Idealize.ShloMosaic.ValueIdx Cert.CenterDistance

variable (X0 : Vec Ideal S1024x256 .bf16) (X2 : Vec Ideal S256x1024 .bf16) (X5 : Vec Ideal S1024x1 .f32)
  (X7 : Vec Ideal S1x1024 .f32) (X23 : Vec Ideal S1024x1 .i32)

/-- One cell of the tile: row r of the tile against lane c. -/
def cell (r c : Fin 1024) : EReal :=
  Scalar.select (IntOp.ori (IntOp.cmpi .eq (BitVec.ofNat 32 c.val) (X23 (ix2 r (0 : Fin 1)))) (IntOp.cmpi .sge (BitVec.ofNat 32 c.val) 1000#32)) zeroW
    (min hiW (max loW (Ideal.sqrt (max ((X5 (ix2 r (0 : Fin 1)) + X7 (ix2 (0 : Fin 1) c)) - twoW * ∑ k : Fin 256, X0 (ix2 r k) * X2 (ix2 k c)) zeroW))))

/-- A [1024,1] column broadcast along 1024 lanes, at (r, c): the column's entry r. -/
theorem colBroadcast_apply {α : Type} (v : S1024x1.Idx → α) (h : S1024x1.Broadcasts S1024x1024) (r c : Fin 1024) :
    broadcastTo S1024x1024 v h (ix2 r c) = v (ix2 r (0 : Fin 1)) :=
  broadcastTo_apply v h (ix2 r c) (ix2 r (0 : Fin 1)) (fun a => match a with
    | ⟨0, _⟩ => by show r.val = if (1024 : Nat) = 1 then 0 else r.val; rw [if_neg (by decide)]
    | ⟨1, _⟩ => by show 0 = if (1 : Nat) = 1 then 0 else c.val; rw [if_pos rfl])

/-- A [1,1024] row broadcast down 1024 rows, at (r, c): the row's entry c. -/
theorem rowBroadcast_apply {α : Type} (v : S1x1024.Idx → α) (h : S1x1024.Broadcasts S1024x1024) (r c : Fin 1024) :
    broadcastTo S1024x1024 v h (ix2 r c) = v (ix2 (0 : Fin 1) c) :=
  broadcastTo_apply v h (ix2 r c) (ix2 (0 : Fin 1) c) (fun a => match a with
    | ⟨0, _⟩ => by show 0 = if (1 : Nat) = 1 then 0 else r.val; rw [if_pos rfl]
    | ⟨1, _⟩ => by show c.val = if (1024 : Nat) = 1 then 0 else c.val; rw [if_neg (by decide)])

/-- The body's matrix product at (r, c): the sum over the 256 coordinates of the point's against the center column's. -/
theorem product_apply (r c : Fin 1024) :
    matmul (F := Ideal) (φ₁ := .bf16) (φ₂ := .bf16) dot_S1024x256_S256x1024_S1024x1024_1_0_0_1_n_n none (shapeCast S1024x256 X0 Facts₀.shapeCasts_S1024x256_S1024x256)
      (shapeCast S256x1024 X2 Facts₀.shapeCasts_S256x1024_S256x1024) (constant (F := Ideal) S1024x1024 .f32 0x00000000#32) (ix2 r c)
      = ∑ k : Fin 256, X0 (ix2 r k) * X2 (ix2 k c) := by
  rw [shapeCast_self, shapeCast_self]
  exact Cert.Lib.PlainMatmul.plain_matmul_zero_apply (φ₁ := .bf16) (φ₂ := .bf16) X0 X2 r c

/-- The body's value at its one index: the sum over the tile's rows and lanes of the cells. -/
theorem pay_apply : Gen.k0_pay1 X0 X2 X5 X7 X23 (ix3 (0 : Fin 1) (0 : Fin 1) (0 : Fin 1)) = ∑ r : Fin 1024, ∑ c : Fin 1024, cell X0 X2 X5 X7 X23 r c := by
  unfold Gen.k0_pay1
  refine (shapeCast_apply _ _ (ix3 (0 : Fin 1) (0 : Fin 1) (0 : Fin 1)) (ix2 (0 : Fin 1) (0 : Fin 1)) (by rw [Shape.rowMajor_val_two, Shape.rowMajor_val_three]; rfl)).trans ?_
  refine (shapeCast_apply _ _ (ix2 (0 : Fin 1) (0 : Fin 1)) (ix1 (0 : Fin 1)) (by rw [Shape.rowMajor_val_one, Shape.rowMajor_val_two]; rfl)).trans ?_
  refine (Cert.Lib.ColSum.colSum_apply _ _ _ _ _ (0 : Fin 1)).trans ?_
  refine Finset.sum_congr rfl fun r _ => ?_
  refine (shapeCast_apply _ _ (ix2 r (0 : Fin 1)) (ix1 r) (by rw [Shape.rowMajor_val_one, Shape.rowMajor_val_two]; show r.val = r.val * 1 + 0; omega)).trans ?_
  refine (Cert.Lib.PlainMatmul.rowSum_apply _ _ _ _ _ r).trans ?_
  refine Finset.sum_congr rfl fun c _ => ?_
  have e22 : iota Kind.tc S1024x1024 32 [1] Facts₀.iota_S1024x1024_d1_w32 (ix2 r c) = BitVec.ofNat 32 c.val :=
    iota_single_apply _ _ _ _ _ _
  have e25 : broadcastTo S1024x1024 (shapeCast S1024x1 X23 Facts₀.shapeCasts_S1024x1_S1024x1) Facts₀.broadcasts_S1024x1_S1024x1024 (ix2 r c) = X23 (ix2 r (0 : Fin 1)) := by
    rw [shapeCast_self]; exact colBroadcast_apply _ _ r c
  have e9 : broadcastTo S1024x1024 (shapeCast S1024x1 X5 Facts₀.shapeCasts_S1024x1_S1024x1) Facts₀.broadcasts_S1024x1_S1024x1024 (ix2 r c) = X5 (ix2 r (0 : Fin 1)) := by
    rw [shapeCast_self]; exact colBroadcast_apply _ _ r c
  have e10 : broadcastTo S1024x1024 (shapeCast S1x1024 X7 Facts₀.shapeCasts_S1x1024_S1x1024) Facts₀.broadcasts_S1x1024_S1024x1024 (ix2 r c) = X7 (ix2 (0 : Fin 1) c) := by
    rw [shapeCast_self]; exact rowBroadcast_apply _ _ r c
  have e4 := product_apply X0 X2 r c
  unfold cell
  rw [← e22, ← e25, ← e9, ← e10, ← e4]
  rfl

end Cert.KernelIdeal.Payload

end
-- ==== Proof.LibBlockSum.lean ====
/-
  A sum over `a * b` consecutive indices, cut into `a` consecutive blocks of `b` indices each: the whole sum is the
  sum over the blocks of the sums inside each block. Only commutativity and associativity of `+` are used, so the
  law holds in every commutative additive monoid — in particular on the extended reals, where no finiteness is needed.
-/
import Mathlib.Algebra.BigOperators.Fin
import Mathlib.Logic.Equiv.Fin.Basic

namespace Cert.BlockSum

open Finset

/-- Position `j` of block `k` is an index below `a * b`. -/
theorem block_lt {a b : ℕ} (k : Fin a) (j : Fin b) : k.val * b + j.val < a * b :=
  Nat.lt_of_lt_of_le (Nat.add_lt_add_left j.isLt _) (by rw [← Nat.succ_mul]; exact Nat.mul_le_mul_right _ k.isLt)

/-- The sum of `g` over the `a * b` indices, read block by block: block `k` holds the indices `k * b + j`, `j < b`. -/
theorem sum_blocks {M : Type*} [AddCommMonoid M] (a b : ℕ) (g : Fin (a * b) → M) :
    ∑ i : Fin (a * b), g i = ∑ k : Fin a, ∑ j : Fin b, g ⟨k.val * b + j.val, block_lt k j⟩ := by
  rw [← finProdFinEquiv.sum_comp, Fintype.sum_prod_type]
  refine Finset.sum_congr rfl fun k _ => Finset.sum_congr rfl fun j _ => congrArg g (Fin.ext ?_)
  show j.val + b * k.val = k.val * b + j.val
  rw [Nat.mul_comm, Nat.add_comm]

/-- The same over `n` indices when `n` is the product `a * b`. -/
theorem sum_blocks_of_eq {M : Type*} [AddCommMonoid M] (a b n : ℕ) (hn : a * b = n) (g : Fin n → M) :
    ∑ i : Fin n, g i = ∑ k : Fin a, ∑ j : Fin b, g ⟨k.val * b + j.val, hn ▸ block_lt k j⟩ := by
  subst hn
  exact sum_blocks a b g

end Cert.BlockSum
-- ==== Proof.TileSum.lean ====
/-
  From the tile's cells to the specification's total. Three things, none asking finiteness: a lane at or past 1000 is
  masked to the zero word, so a row's sum over the 1024 lanes is its sum over the 1000 classes; a cell on a real lane
  is the pair's contribution — the lane-number comparison is the label comparison read the other way round, and
  under the clamp the root of max(d, 0) is the root of d —; and the 16 tiles of 1024 rows each are the 16384 points.
-/
import proofs.«103654_j41197326303940_2_alg».proof.Proof.Payload
import proofs.«103654_j41197326303940_2_alg».proof.Proof.LibBlockSum
import Mathlib.Algebra.BigOperators.Fin

noncomputable section

open scoped BigOperators

namespace Cert.KernelIdeal.TileSum

open Cert.KernelIdeal Idealize.ShloMosaic Idealize.ShloMosaic.ValueIdx Cert.CenterDistance Cert.KernelIdeal.Payload

/-! ## Words: the lane mask -/

/-- A lane number at or past 1000 is, as a signed 32-bit word, at least 1000. -/
theorem sge_pad : ∀ c : Fin 1024, 1000 ≤ c.val → IntOp.cmpi .sge (BitVec.ofNat 32 c.val) 1000#32 = 1#1 := by decide +kernel
/-- A lane number below 1000 is not. -/
theorem sge_real : ∀ c : Fin 1024, c.val < 1000 → IntOp.cmpi .sge (BitVec.ofNat 32 c.val) 1000#32 = 0#1 := by decide +kernel
theorem ori_one (b : BitVec 1) : IntOp.ori b 1#1 = 1#1 := by revert b; decide
theorem ori_zero (b : BitVec 1) : IntOp.ori b 0#1 = b := by revert b; decide
/-- Equality of words does not depend on the order of its operands. -/
theorem cmpi_eq_comm (a b : BitVec 32) : IntOp.cmpi .eq a b = IntOp.cmpi .eq b a :=
  congrArg BitVec.ofBool BEq.comm

/-! ## Sums -/

/-- A sum over 1024 lanes of a function that vanishes from lane 1000 on is the sum over the first 1000. -/
theorem sum_lanes {M : Type*} [AddCommMonoid M] (f : Fin 1024 → M) (h : ∀ c : Fin 1024, 1000 ≤ c.val → f c = 0) :
    ∑ c, f c = ∑ j : Fin 1000, f ⟨j.val, by omega⟩ := by
  calc ∑ c, f c = ∑ i : Fin 1000, f (Fin.castAdd 24 i) + ∑ i : Fin 24, f (Fin.natAdd 1000 i) :=
        Fin.sum_univ_add (a := 1000) (b := 24) f
    _ = ∑ i : Fin 1000, f (Fin.castAdd 24 i) + 0 :=
        congrArg (_ + ·) (Finset.sum_eq_zero fun i _ => h _ (by show 1000 ≤ 1000 + i.val; omega))
    _ = ∑ j : Fin 1000, f ⟨j.val, by omega⟩ := by rw [add_zero]; rfl

/-- The index set of an [n,1,1] array is its first coordinate's range … -/
def unitIdx3 {n : Nat} : (⟨3, ![n, 1, 1]⟩ : Shape).Idx ≃ Fin n where
  toFun i := i 0
  invFun t := ix3 t (0 : Fin 1) (0 : Fin 1)
  left_inv i := by
    funext a
    match a with
    | ⟨0, _⟩ => rfl
    | ⟨1, _⟩ => exact Fin.ext (by have h : (i 1).val < 1 := (i 1).isLt; show 0 = (i 1).val; omega)
    | ⟨2, _⟩ => exact Fin.ext (by have h : (i 2).val < 1 := (i 2).isLt; show 0 = (i 2).val; omega)
  right_inv _ := rfl
/-- … so a sum over it is the sum over that coordinate. -/
theorem sum_idx3_unit {M : Type*} [AddCommMonoid M] {n : Nat} (f : (⟨3, ![n, 1, 1]⟩ : Shape).Idx → M) :
    ∑ i, f i = ∑ t : Fin n, f (ix3 t (0 : Fin 1) (0 : Fin 1)) := by
  rw [← Equiv.sum_comp (unitIdx3 (n := n)).symm f]; rfl

/-! ## A tile's cells -/

section
variable (x : (⟨2, ![16384, 256]⟩ : Shape).Idx → EReal) (cen : (⟨2, ![1000, 256]⟩ : Shape).Idx → EReal)
  (lab : (⟨1, ![16384]⟩ : Shape).Idx → BitVec 32)
variable (X0 : Vec Ideal S1024x256 .bf16) (X2 : Vec Ideal S256x1024 .bf16) (X5 : Vec Ideal S1024x1 .f32)
  (X7 : Vec Ideal S1x1024 .f32) (X23 : Vec Ideal S1024x1 .i32)

/-- Row r of tile t is a point. -/
theorem row_lt (t : Fin 16) (r : Fin 1024) : t.val * 1024 + r.val < 16384 := by omega

/-- A padding lane contributes nothing. -/
theorem cell_pad (r c : Fin 1024) (hc : 1000 ≤ c.val) : cell X0 X2 X5 X7 X23 r c = 0 := by
  unfold cell
  rw [sge_pad c hc, ori_one, select_one]
  exact Ideal.ofBits_zero_f32

/-- A real lane c, on a row that holds point b, contributes what the pair (b, c) does. -/
theorem cell_real (b : Fin 16384) (r c : Fin 1024) (hc : c.val < 1000)
    (h0 : ∀ k, X0 (ix2 r k) = x (ix2 b k)) (h2 : ∀ k, X2 (ix2 k c) = cen (ix2 ⟨c.val, hc⟩ k))
    (h5 : X5 (ix2 r (0 : Fin 1)) = pointSq x b) (h7 : X7 (ix2 (0 : Fin 1) c) = centerSq cen ⟨c.val, hc⟩)
    (h23 : X23 (ix2 r (0 : Fin 1)) = lab (ix1 b)) :
    cell X0 X2 X5 X7 X23 r c = term x cen lab b ⟨c.val, hc⟩ := by
  unfold cell term
  rw [sge_real c hc, ori_zero, cmpi_eq_comm, h23, h5, h7,
    show (∑ k : Fin 256, X0 (ix2 r k) * X2 (ix2 k c)) = innerProd x cen b ⟨c.val, hc⟩ from
      Finset.sum_congr rfl fun k _ => by rw [h0, h2],
    clampRoot_max_zero]
  rfl

/-- The tile's double sum, when its five blocks hold the rows of tile t: the sum over the tile's points and the
    1000 classes of the pairs' contributions. -/
theorem tile_value (t : Fin 16)
    (h0 : ∀ r k, X0 (ix2 r k) = x (ix2 ⟨t.val * 1024 + r.val, row_lt t r⟩ k))
    (h2 : ∀ k (c : Fin 1024) (hc : c.val < 1000), X2 (ix2 k c) = cen (ix2 ⟨c.val, hc⟩ k))
    (h5 : ∀ r, X5 (ix2 r (0 : Fin 1)) = pointSq x ⟨t.val * 1024 + r.val, row_lt t r⟩)
    (h7 : ∀ (c : Fin 1024) (hc : c.val < 1000), X7 (ix2 (0 : Fin 1) c) = centerSq cen ⟨c.val, hc⟩)
    (h23 : ∀ r, X23 (ix2 r (0 : Fin 1)) = lab (ix1 ⟨t.val * 1024 + r.val, row_lt t r⟩)) :
    ∑ r : Fin 1024, ∑ c : Fin 1024, cell X0 X2 X5 X7 X23 r c
      = ∑ r : Fin 1024, ∑ j : Fin 1000, term x cen lab ⟨t.val * 1024 + r.val, row_lt t r⟩ j := by
  refine Finset.sum_congr rfl fun r _ => ?_
  rw [sum_lanes _ (fun c hc => cell_pad X0 X2 X5 X7 X23 r c hc)]
  refine Finset.sum_congr rfl fun j _ => ?_
  exact cell_real x cen lab X0 X2 X5 X7 X23 ⟨t.val * 1024 + r.val, row_lt t r⟩ r ⟨j.val, by omega⟩ j.isLt
    (h0 r) (fun k => h2 k _ _) (h5 r) (h7 _ _) (h23 r)

/-- The 16 tiles of 1024 rows are the 16384 points. -/
theorem tiles_total :
    ∑ t : Fin 16, ∑ r : Fin 1024, ∑ j : Fin 1000, term x cen lab ⟨t.val * 1024 + r.val, row_lt t r⟩ j = total x cen lab :=
  (Cert.BlockSum.sum_blocks_of_eq 16 1024 16384 rfl (fun b => ∑ j : Fin 1000, term x cen lab b j)).symm

end

end Cert.KernelIdeal.TileSum

end
-- ==== Proof.KernelValue.lean ====
/-
  The kernel's result, read off its frame run. At grid point t the five input windows hold tile t: rows
  t·1024 … t·1024 + 1023 of the points, of their squared norms and of their labels, and all of the transposed padded
  centers and of the centers' squared norms. The body's one stored value is the sum of the tile's cells, which is the
  total, over the tile's points and the 1000 classes, of the pairs' contributions; point t writes it to entry t of the
  [16, 1, 1] output array, and the 16 entries tile that array. The lines after the call sum the array from the zero
  word and divide by the count: the specification's result.
-/
import proofs.«103654_j41197326303940_2_alg».proof.Proof.Gen.KernelIdeal.Frame
import proofs.«103654_j41197326303940_2_alg».proof.Proof.HostPrefix
import proofs.«103654_j41197326303940_2_alg».proof.Proof.Payload
import proofs.«103654_j41197326303940_2_alg».proof.Proof.TileSum
import Idealize.ShloMosaic.Lib.Pipeline.Value
import Idealize.ShloMosaic.Lib.StableHlo.Run

set_option maxRecDepth 16384

noncomputable section

open scoped BigOperators

namespace Cert.KernelIdeal.KernelValue

open Cert.KernelIdeal Cert.KernelIdeal.Gen Idealize.ShloMosaic Idealize.ShloMosaic.TcCoe Idealize.SL.Sem
open Idealize.ShloMosaic.Pipeline (Dat)
open Idealize.ShloMosaic.ValueIdx Cert.CenterDistance Cert.KernelIdeal.Prefix Cert.KernelIdeal.Payload Cert.KernelIdeal.TileSum

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: at point t the point-indexed windows (the points, their squared
    norms, the labels, the output) are at block t of their first axis, the two resident windows at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- A grid point is one of 16. -/
theorem pt_lt (t : Fin cfg0.N) : t.val < 16 := lt_of_lt_of_eq t.isLt N_0

/-- Row r of the tile at point t, as a point. -/
abbrev rowOf (t : Fin cfg0.N) (r : Fin 1024) : Fin 16384 := ⟨t.val * 1024 + r.val, by have := pt_lt t; omega⟩

/-- What the output array holds after the run: entry t is the total, over tile t's points and the 1000 classes, of the
    pairs' contributions. -/
def tileTotals (c : Dev nD) : S16x1x1.Idx → EReal := fun i =>
  ∑ r : Fin 1024, ∑ j : Fin 1000, term (pts m c) (ctr m c) (lbl m c) ⟨(i 0).val * 1024 + r.val, row_lt (i 0) r⟩ j

/-! ## The five input blocks at point t, read at coordinates -/

theorem blk_points (c : Dev nD) (t : Fin cfg0.N) (r : Fin 1024) (k : Fin 256) :
    iblk m c 0 t (ix2 r k) = pts m c (ix2 (rowOf t r) k) := by
  obtain ⟨e0, e1, -⟩ := idx_facts t
  show V m c main_v6 (((cfg0.win 0).blk t).view.emb (ix2 r k)) = _
  refine (points_apply m c _).trans (congrArg (pts m c) (funext fun a => Fin.ext ?_))
  match a with
  | ⟨0, _⟩ => show win0_0.index t (0 : Fin 2) * 1024 + 1 * r.val = t.val * 1024 + r.val; omega
  | ⟨1, _⟩ => show win0_0.index t (1 : Fin 2) * 256 + 1 * k.val = k.val; omega

theorem blk_pointSq (c : Dev nD) (t : Fin cfg0.N) (r : Fin 1024) :
    iblk m c 1 t (ix2 r (0 : Fin 1)) = pointSq (pts m c) (rowOf t r) := by
  obtain ⟨-, -, e0, e1, -⟩ := idx_facts t
  have e : ((cfg0.win 1).blk t).view.emb (ix2 r (0 : Fin 1)) = ix2 (rowOf t r) (0 : Fin 1) := funext fun a => Fin.ext (by
    match a with
    | ⟨0, _⟩ => show win0_1.index t (0 : Fin 2) * 1024 + 1 * r.val = t.val * 1024 + r.val; omega
    | ⟨1, _⟩ => show win0_1.index t (1 : Fin 2) * 1 + 1 * 0 = 0; omega)
  show V m c main_v9 (((cfg0.win 1).blk t).view.emb (ix2 r (0 : Fin 1))) = _
  rw [e, pointSq_apply]; rfl

theorem blk_labels (c : Dev nD) (t : Fin cfg0.N) (r : Fin 1024) :
    iblk m c 4 t (ix2 r (0 : Fin 1)) = lbl m c (ix1 (rowOf t r)) := by
  obtain ⟨-, -, -, -, -, -, -, -, e0, e1, -⟩ := idx_facts t
  have e : ((cfg0.win 4).blk t).view.emb (ix2 r (0 : Fin 1)) = ix2 (rowOf t r) (0 : Fin 1) := funext fun a => Fin.ext (by
    match a with
    | ⟨0, _⟩ => show win0_4.index t (0 : Fin 2) * 1024 + 1 * r.val = t.val * 1024 + r.val; omega
    | ⟨1, _⟩ => show win0_4.index t (1 : Fin 2) * 1 + 1 * 0 = 0; omega)
  show V m c main_v10 (((cfg0.win 4).blk t).view.emb (ix2 r (0 : Fin 1))) = _
  rw [e, labels_apply]

theorem blk_centersT (c : Dev nD) (t : Fin cfg0.N) (k : Fin 256) (j : Fin 1024) (hj : j.val < 1000) :
    iblk m c 2 t (ix2 k j) = ctr m c (ix2 ⟨j.val, hj⟩ k) := by
  obtain ⟨-, -, -, -, e0, e1, -⟩ := idx_facts t
  have e : ((cfg0.win 2).blk t).view.emb (ix2 k j) = ix2 k j := funext fun a => Fin.ext (by
    match a with
    | ⟨0, _⟩ => show win0_2.index t (0 : Fin 2) * 256 + 1 * k.val = k.val; omega
    | ⟨1, _⟩ => show win0_2.index t (1 : Fin 2) * 1024 + 1 * j.val = j.val; omega)
  show V m c main_v2 (((cfg0.win 2).blk t).view.emb (ix2 k j)) = _
  rw [e, centersT_apply m c k j hj]

theorem blk_centerSq (c : Dev nD) (t : Fin cfg0.N) (j : Fin 1024) (hj : j.val < 1000) :
    iblk m c 3 t (ix2 (0 : Fin 1) j) = centerSq (ctr m c) ⟨j.val, hj⟩ := by
  obtain ⟨-, -, -, -, -, -, e0, e1, -⟩ := idx_facts t
  have e : ((cfg0.win 3).blk t).view.emb (ix2 (0 : Fin 1) j) = ix2 (0 : Fin 1) j := funext fun a => Fin.ext (by
    match a with
    | ⟨0, _⟩ => show win0_3.index t (0 : Fin 2) * 1 + 1 * 0 = 0; omega
    | ⟨1, _⟩ => show win0_3.index t (1 : Fin 2) * 1024 + 1 * j.val = j.val; omega)
  show V m c main_v5 (((cfg0.win 3).blk t).view.emb (ix2 (0 : Fin 1) j)) = _
  rw [e, centerSq_apply m c j hj]; rfl

/-! ## What point t writes back -/

/-- WHAT POINT t WRITES BACK is block t of `tileTotals`: the body's one value is the sum of the tile's cells
    (the payload read), the tile's blocks hold tile t's rows of the prepared arrays, and the cells' sum is the
    tile's total. -/
theorem flushed_eq (c : Dev nD) (t : Fin cfg0.N) :
    (dats m 0 c).flushed 5 t = ((cfg0.win 5).blk t).view.read (Elt Ideal) (tileTotals m c) := by
  show (cfg0.win 5).cut (grid0.coords t) ((dats m 0 c).after 5 t) = _
  rw [after0_5]
  unfold out0_5
  rw [View.canon_unit_zero hz3]
  simp only [View.ld_unit_zero (S := S1024x256) hz2, View.ld_unit_zero (S := S256x1024) hz2, View.ld_unit_zero (S := S1024x1) hz2, View.ld_unit_zero (S := S1x1024) hz2]
  funext j
  have hj0 : (j 0).val = 0 := by have h : (j 0).val < 1 := (j 0).isLt; omega
  have hj1 : (j 1).val = 0 := by have h : (j 1).val < 1 := (j 1).isLt; omega
  have hj2 : (j 2).val = 0 := by have h : (j 2).val < 1 := (j 2).isLt; omega
  have ex : (cfg0.win 5).xinj (grid0.coords t) j = ix3 (0 : Fin 1) (0 : Fin 1) (0 : Fin 1) := funext fun a => Fin.ext (by
    match a with
    | ⟨0, _⟩ => exact hj0
    | ⟨1, _⟩ => exact hj1
    | ⟨2, _⟩ => exact hj2)
  show k0_pay1 (iblk m c 0 t) (iblk m c 2 t) (iblk m c 1 t) (iblk m c 3 t) (iblk m c 4 t) ((cfg0.win 5).xinj (grid0.coords t) j)
    = tileTotals m c (((cfg0.win 5).blk t).view.emb j)
  refine (congrArg (k0_pay1 (iblk m c 0 t) (iblk m c 2 t) (iblk m c 1 t) (iblk m c 3 t) (iblk m c 4 t)) ex).trans ?_
  refine (pay_apply (iblk m c 0 t) (iblk m c 2 t) (iblk m c 1 t) (iblk m c 3 t) (iblk m c 4 t)).trans ?_
  refine (tile_value (pts m c) (ctr m c) (lbl m c) (iblk m c 0 t) (iblk m c 2 t) (iblk m c 1 t) (iblk m c 3 t) (iblk m c 4 t)
    ⟨t.val, pt_lt t⟩ (fun r k => blk_points m c t r k) (fun k j hj => blk_centersT m c t k j hj) (fun r => blk_pointSq m c t r)
    (fun j hj => blk_centerSq m c t j hj) (fun r => blk_labels m c t r)).trans ?_
  obtain ⟨-, -, -, -, -, -, -, -, -, -, e50, -, -⟩ := idx_facts t
  have e5 : ((((cfg0.win 5).blk t).view.emb j) 0).val = t.val := by
    show win0_5.index t (0 : Fin 3) * 1 + 1 * (j 0).val = t.val; omega
  unfold tileTotals
  refine Finset.sum_congr rfl fun r _ => Finset.sum_congr rfl fun jj _ => ?_
  exact congrArg (fun b => term (pts m c) (ctr m c) (lbl m c) b jj) (Fin.ext (by
    show t.val * 1024 + r.val = ((((cfg0.win 5).blk t).view.emb j) 0).val * 1024 + r.val; rw [e5]))

/-! ## The output array after the run -/

/-- An index of the output array is in point t's block iff each coordinate is in the block's range on its axis. -/
theorem mem_blk_out (t : Fin cfg0.N) (i : S16x1x1.Idx) :
    i ∈ ((cfg0.win 5).blk t).view.set ↔ ∀ a : Fin 3, win0_5.index t a * S1x1x1.size a ≤ (i a).val ∧ (i a).val < win0_5.index t a * S1x1x1.size a + S1x1x1.size a := by
  show i ∈ ((View.whole main_v11).slice (win0_5.rect t)).set ↔ _
  rw [View.set_slice_whole, Rect.mem_set_unit]
  exact Iff.rfl

/-- Every entry of the output array is some point's block: entry t is point t's. -/
theorem covered (i : S16x1x1.Idx) : ∃ t : Fin cfg0.N, (cfg0.win 5).flush t = true ∧ i ∈ ((cfg0.win 5).blk t).view.set := by
  have hi0 : (i 0).val < 16 := (i 0).isLt
  have hi1 : (i 1).val < 1 := (i 1).isLt
  have hi2 : (i 2).val < 1 := (i 2).isLt
  obtain ⟨-, -, -, -, -, -, -, -, -, -, e0, e1, e2⟩ := idx_facts ⟨(i 0).val, lt_of_lt_of_eq hi0 N_0.symm⟩
  have e0 : win0_5.index ⟨(i 0).val, lt_of_lt_of_eq hi0 N_0.symm⟩ (0 : Fin 3) = (i 0).val := e0
  refine ⟨⟨(i 0).val, lt_of_lt_of_eq hi0 N_0.symm⟩, flush0_5 _, ?_⟩
  rw [mem_blk_out]
  intro a
  match a with
  | ⟨0, _⟩ =>
    show win0_5.index ⟨(i 0).val, lt_of_lt_of_eq hi0 N_0.symm⟩ (0 : Fin 3) * 1 ≤ (i 0).val ∧ (i 0).val < win0_5.index ⟨(i 0).val, lt_of_lt_of_eq hi0 N_0.symm⟩ (0 : Fin 3) * 1 + 1
    rw [e0]; omega
  | ⟨1, _⟩ =>
    show win0_5.index ⟨(i 0).val, lt_of_lt_of_eq hi0 N_0.symm⟩ (1 : Fin 3) * 1 ≤ (i 1).val ∧ (i 1).val < win0_5.index ⟨(i 0).val, lt_of_lt_of_eq hi0 N_0.symm⟩ (1 : Fin 3) * 1 + 1
    rw [e1]; omega
  | ⟨2, _⟩ =>
    show win0_5.index ⟨(i 0).val, lt_of_lt_of_eq hi0 N_0.symm⟩ (2 : Fin 3) * 1 ≤ (i 2).val ∧ (i 2).val < win0_5.index ⟨(i 0).val, lt_of_lt_of_eq hi0 N_0.symm⟩ (2 : Fin 3) * 1 + 1
    rw [e2]; omega

/-- THE OUTPUT ARRAY after the run holds the tiles' totals. -/
theorem final (c : Dev nD) : (dats m 0 c).arrAt 5 cfg0.N = tileTotals m c :=
  (dats m 0 c).arrAt_eq_of_cover 5 (tileTotals m c) (fun t _ => flushed_eq m c t) covered

/-! ## The lines after the call -/

/-- The sum of the 16 tiles' totals from the zero word. -/
theorem tail_total (G : S16x1x1.Idx → EReal) (i : S_.Idx) :
    Host.reduceAdd (F := Ideal) (φ := .f32) G (constant (F := Ideal) S_ .f32 0x00000000#32) Facts₀.reducesTo_S16x1x1_S_d0_1_2 Facts₀.h_S_ i
      = zeroW + ∑ t : Fin 16, G (ix3 t (0 : Fin 1) (0 : Fin 1)) := by
  simp only [Host.reduceAdd, Ideal.hostReduceAdd_def]
  rw [Ideal.hostReduceAdd_total Facts₀.reducesTo_S16x1x1_S_d0_1_2 (fun b => b.elim0), sum_idx3_unit]
  rfl

/-- THE RESULT: the lines after the call sum the output array from the zero word and divide by the count; with the
    array at the tiles' totals that is the specification's result. -/
theorem tail_value (c : Dev nD) :
    @Eq (S_.Idx → EReal) (Pipeline.afterTail₀ cfgs (dats m) 0 (V0 m) [hostOps1] c main_v13) (loss (pts m c) (ctr m c) (lbl m c)) := by
  unfold Pipeline.afterTail₀
  show StableHlo.after hostOps1 _ (Proc.devRef .tc main_v13) = _
  after_results
  rw [show Pipeline.withArrays (cfgs 0).spec c (V0 m c) (fun w => (dats m 0 c).arrAt w (cfgs 0).N) (Proc.devRef .tc main_v11) = tileTotals m c from
    (Pipeline.withArrays_arr spec0 launch0.win.arr_inj c _ _ 5).trans (final m c)]
  funext i
  show FloatOps.hostDivf (F := Ideal) (φ := .f32)
    (Host.reduceAdd (F := Ideal) (φ := .f32) (tileTotals m c) (constant (F := Ideal) S_ .f32 0x00000000#32) Facts₀.reducesTo_S16x1x1_S_d0_1_2 Facts₀.h_S_ i) countW = _
  rw [tail_total]
  unfold loss
  refine congrArg (fun s => FloatOps.hostDivf (F := Ideal) (φ := .f32) (zeroW + s) countW) ?_
  exact tiles_total (pts m c) (ctr m c) (lbl m c)

/-! ## The run, read -/

/-- The frame run re-posted: the result at the specification's value of the arguments, the arguments unchanged. -/
theorem run : θ_run defs (onTc (τ := τ) (main (F := Ideal))) ⟨m, fun _ => 0, ρ⟩ fun r => ∀ c : Dev nD,
      r.2.mem ((c.tc : Thread nD τ).loc main_v13) = loss (pts m c) (ctr m c) (lbl m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v13 (Pipeline.mem_restRefs_of main_v13 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue
end
-- ==== Proof.RefValue.lean ====
/-
  The reference computes the specification. Read one operation at a time, its masked distance array at (b, j) is the
  pair's contribution: the row of squared norms, the row of the centers' squared norms and the inner products meet
  in the expanded squared distance; the root is clamped; the point's own class is replaced by the zero word. The
  total over the whole array is the double sum over points and classes, and the quotient by the count is the result.
-/
import proofs.«103654_j41197326303940_2_alg».proof.Proof.Gen.ReferenceIdeal.Read
import proofs.«103654_j41197326303940_2_alg».proof.Proof.Spec

noncomputable section

open scoped BigOperators

namespace Cert.ReferenceIdeal.RefValue

open Cert.ReferenceIdeal Cert.ReferenceIdeal.Read Idealize.ShloMosaic Idealize.ShloMosaic.ValueIdx Cert.CenterDistance

variable (x : FVec Ideal S16384x256 .f32) (cen : FVec Ideal S1000x256 .f32) (lab : IVec S16384 32)

/-- The broadcast column of squared norms at (b, j) is the squared norm of point b. -/
theorem pointSq_ref (b : Fin 16384) (j : Fin 1000) : val_main_v6 (F := Ideal) x (ix2 b j) = pointSq x b := by
  rw [val_main_v6_apply, val_main_v2_apply, val_main_v1_apply]
  unfold pointSq
  refine congrArg (zeroW + ·) (Finset.sum_congr rfl fun k _ => ?_)
  rw [val_main_v0_apply]
  have e : idx_main_v1 (idx_main_v2 (idx_main_v6 (ix2 b j))) k = ix2 b k :=
    funext fun a => Fin.ext (by match a with | ⟨0, _⟩ => rfl | ⟨1, _⟩ => rfl)
  rw [e]; rfl

/-- The broadcast row of the centers' squared norms at (b, j) is the squared norm of center j. -/
theorem centerSq_ref (b : Fin 16384) (j : Fin 1000) : val_main_v7 (F := Ideal) cen (ix2 b j) = centerSq cen j := by
  rw [val_main_v7_apply, val_main_v5_apply, val_main_v4_apply]
  unfold centerSq
  refine congrArg (zeroW + ·) (Finset.sum_congr rfl fun k _ => ?_)
  rw [val_main_v3_apply]
  have e : idx_main_v4 (idx_main_v5 (idx_main_v7 (ix2 b j))) k = ix2 j k :=
    funext fun a => Fin.ext (by match a with | ⟨0, _⟩ => rfl | ⟨1, _⟩ => rfl)
  rw [e]; rfl

/-- The contraction at (b, j) is the inner product of point b and center j. -/
theorem inner_ref (b : Fin 16384) (j : Fin 1000) : val_main_v9 (F := Ideal) x cen (ix2 b j) = innerProd x cen b j := by
  rw [val_main_v9_apply]
  unfold innerProd
  refine Finset.sum_congr rfl fun k _ => ?_
  have el : lidx_main_v9 (ix2 b j) k = ix2 b k :=
    funext fun a => Fin.ext (by match a with | ⟨0, _⟩ => rfl | ⟨1, _⟩ => rfl)
  have er : ridx_main_v9 (ix2 b j) k = ix2 j k :=
    funext fun a => Fin.ext (by match a with | ⟨0, _⟩ => rfl | ⟨1, _⟩ => rfl)
  rw [el, er]

/-- The expanded squared distance at (b, j). -/
theorem sqDist_ref (b : Fin 16384) (j : Fin 1000) : val_main_v12 (F := Ideal) x cen (ix2 b j) = sqDist x cen b j := by
  rw [val_main_v12_apply, val_main_v8_apply, val_main_v11_apply, pointSq_ref, centerSq_ref, inner_ref,
    val_main_v10_apply, val_main_cst_1_apply]
  rfl

/-- The clamped root at (b, j). -/
theorem clamp_ref (b : Fin 16384) (j : Fin 1000) : val_main_v20 (F := Ideal) x cen (ix2 b j) = clampRoot (sqDist x cen b j) := by
  rw [val_main_v20_apply, val_main_call0_v4_apply, val_main_call0_v3_apply, val_main_cst_3_apply,
    val_main_call0_v2_apply, val_main_call0_v1_apply, val_main_call0_v0_apply, val_main_cst_2_apply,
    val_main_v19_apply, sqDist_ref]
  rfl

/-- The masked array at (b, j) is the pair's contribution. -/
theorem masked_ref (b : Fin 16384) (j : Fin 1000) : val_main_v21 (F := Ideal) x cen lab (ix2 b j) = term x cen lab b j := by
  rw [val_main_v21_apply, val_main_v18_apply, val_main_v16_apply, val_main_v13_apply, val_main_v17_apply,
    val_main_v15_apply, val_main_v14_apply, val_main_call1_v1_apply, val_main_call1_v0_apply, val_main_cst_4_apply,
    clamp_ref]
  have e : idx_main_v13 (idx_main_v16 (ix2 b j)) = ix1 b :=
    funext fun a => Fin.ext (by match a with | ⟨0, _⟩ => rfl)
  rw [e]; rfl

/-- The reference's result is the specification's. -/
theorem result_eq : val_main_v23 (F := Ideal) x cen lab = loss x cen lab := by
  funext i
  rw [val_main_v23_apply, val_main_v22_apply, val_main_cst_6_apply]
  unfold loss total
  refine congrArg (fun s => FloatOps.hostDivf (F := Ideal) (φ := .f32) (zeroW + s) countW) ?_
  refine (sum_idx2 (n0 := 16384) (n1 := 1000) (val_main_v21 (F := Ideal) x cen lab)).trans ?_
  exact Finset.sum_congr rfl fun b _ => Finset.sum_congr rfl fun j _ => masked_ref x cen lab b j

end Cert.ReferenceIdeal.RefValue

end
-- ==== Proof.lean ====
/-
  The mean distance from each point to the centers of the classes other than its own: the kernel against its reference.

  Both programs take 16384 points and 1000 class centers in 256 coordinates, and one label per point. For a point b and
  a class j both form the squared distance in its expanded shape, |x_b|² + |c_j|² − 2·⟨x_b, c_j⟩, take its square root,
  clamp it between two literals, replace the point's own class by zero, add everything up and divide by a literal
  count. On the extended reals, where every float operation is the exact one and a change of float format is the
  identity, the two results are one function of the arguments, with no finiteness asked of them.

  The reference does this over one [16384, 1000] array. The kernel pads the centers to 1024 rows, prepares the squared
  norms on the host, and walks 16 tiles of 1024 points each; a tile's body multiplies its points with all 1024 padded
  centers, masks a lane when it is the row's label or is a padding lane (1000 or more), and stores the tile's total as
  one entry of a [16, 1, 1] array, which the host then sums and divides.

  What joins the two sides:
  * the padding lanes are masked, so a row's sum over 1024 lanes is its sum over the 1000 classes, and what the padded
    rows hold is never read;
  * the kernel takes the root of max(d, 0) where the reference takes the root of d. Below zero the first is the root
    of zero, which is zero, and the second is the junk value −∞; the clamp's lower literal is not negative, so the
    maximum with it gives that literal in both cases;
  * the lane-number comparison is the label comparison with its operands exchanged;
  * sums over the extended reals commute and associate, so 16 tiles of 1024 rows are the 16384 points.

  The frames of the two kernel programs are the generated ones; the reference's frame is its generated run with the
  result dropped; the idealization rewrote nothing, so its statement is `True`.
-/
import proofs.«103654_j41197326303940_2_alg».proof.Defs
import proofs.«103654_j41197326303940_2_alg».proof.Proof.Gen.Kernel
import proofs.«103654_j41197326303940_2_alg».proof.Proof.Gen.Kernel.Skeleton
import proofs.«103654_j41197326303940_2_alg».proof.Proof.Gen.Kernel.Launch
import proofs.«103654_j41197326303940_2_alg».proof.Proof.Gen.Kernel.Points
import proofs.«103654_j41197326303940_2_alg».proof.Proof.Gen.Kernel.Frame
import proofs.«103654_j41197326303940_2_alg».proof.Proof.Gen.KernelIdeal
import proofs.«103654_j41197326303940_2_alg».proof.Proof.Gen.KernelIdeal.Skeleton
import proofs.«103654_j41197326303940_2_alg».proof.Proof.Gen.KernelIdeal.Launch
import proofs.«103654_j41197326303940_2_alg».proof.Proof.Gen.KernelIdeal.Points
import proofs.«103654_j41197326303940_2_alg».proof.Proof.Gen.KernelIdeal.Frame
import proofs.«103654_j41197326303940_2_alg».proof.Proof.Gen.ReferenceIdeal
import proofs.«103654_j41197326303940_2_alg».proof.Proof.Gen.ReferenceIdeal.Run
import proofs.«103654_j41197326303940_2_alg».proof.Proof.Gen.ReferenceIdeal.Read
import proofs.«103654_j41197326303940_2_alg».proof.Proof.Gen.Pre_finite_inputs
import proofs.«103654_j41197326303940_2_alg».proof.Proof.KernelValue
import proofs.«103654_j41197326303940_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the specification's result of them: the
    kernel by its frame run read through the tiles, the reference by its run read one operation at a time. -/
theorem algebraic : Cert.algebraic_KernelIdeal_ReferenceIdeal := by
  intro m ρ m' ρ' _ hagree
  refine ⟨fun c => Cert.CenterDistance.loss (Cert.KernelIdeal.Prefix.pts m c) (Cert.KernelIdeal.Prefix.ctr m c) (Cert.KernelIdeal.Prefix.lbl m c),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
